-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩
abbrev S10000x256 : Shape := ⟨2, ![10000, 256]⟩
abbrev S1 : Shape := ⟨1, ![1]⟩
abbrev S10000 : Shape := ⟨1, ![10000]⟩
abbrev S400x10000 : Shape := ⟨2, ![400, 10000]⟩
abbrev S400x128 : Shape := ⟨2, ![400, 128]⟩
abbrev S400x256 : Shape := ⟨2, ![400, 256]⟩
abbrev S400x1 : Shape := ⟨2, ![400, 1]⟩

abbrev nBuf : Space → Nat
  | .hbm => 15
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S_, .f32⟩
  | .hbm, ⟨4, _⟩ => ⟨S10000x256, .f32⟩
  | .hbm, ⟨5, _⟩ => ⟨S_, .i32⟩
  | .hbm, ⟨6, _⟩ => ⟨S1, .i32⟩
  | .hbm, ⟨7, _⟩ => ⟨S10000x256, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S10000, .f32⟩
  | .hbm, ⟨12, _⟩ => ⟨S10000x256, .f32⟩
  | .hbm, ⟨13, _⟩ => ⟨S10000x256, .bf16⟩
  | .hbm, ⟨14, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x256, .bf16⟩
  | .local _ .vmem, ⟨3, _⟩ => ⟨S128x128, .f32⟩
  | .local _ .vmem, ⟨4, _⟩ => ⟨S400x128, .f32⟩
  | .local _ .vmem, ⟨5, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_c_0 : Ref sig .tc := ⟨.hbm, 8, rfl⟩
abbrev main_call0_v3 : Ref sig .tc := ⟨.hbm, 9, rfl⟩
abbrev main_call0_cst_1 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S10000x256 : S_.BroadcastsInDim S10000x256 (![] : Fin 0 → Fin S10000x256.rank)
  bcast_S_S1 : S_.BroadcastsInDim S1 (![] : Fin 0 → Fin S1.rank)
  bcast_S_S10000 : S_.BroadcastsInDim S10000 (![] : Fin 0 → Fin S10000.rank)
  bitsLt_bf16_f32 : FTy.bits .bf16 < FTy.bits .f32
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  slices_S400x256_o0_0_S400x128 : S400x256.Slices ![0, 0] S400x128
  slices_S400x256_o0_128_S400x1 : S400x256.Slices ![0, 128] S400x1
  inb_S128x128_S128x128_0_0 : ∀ a, (![0, 0] : Fin 2 → Nat) a + S128x128.size a ≤ S128x128.size a
  h_S128x128 : 0 < S128x128.numel
  broadcasts_S400x1_S400x128 : S400x1.Broadcasts S400x128
  inb_S400x128_S400x128_0_0 : ∀ a, (![0, 0] : Fin 2 → Nat) a + S400x128.size a ≤ S400x128.size a
  h_S400x128 : 0 < S400x128.numel
  scatter_S10000x256_S1_S10000x128_01_n_1_0_wf : ScatterDims.WF S10000x256 S1 S10000x128 [0, 1] [] [1] 0
  scatter_S10000x256_S1_S10000_0_1_1_0_wf : ScatterDims.WF S10000x256 S1 S10000 [0] [1] [1] 0
  dot_S400x10000_S10000x256_S400x256_1_0_0_1_n_n_wf : DotDims.WF S400x10000 S10000x256 S400x256 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .bf16 = 32 ∨ (Rect.block (s := S10000x256) S10000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x128.size a ≤ S10000x128.size a
  hwx0_3 : ∀ i : grid0.Coords, EltTy.bits .f32 = 32 ∨ (Rect.block (s := S10000x128) S400x128.size (cc0_transform_3 i) (hinb0_3 i)).WholeWords (EltTy.packing .f32)

variable [Facts₀]

def scatter_S10000x256_S1_S10000x128_01_n_1_0 : ScatterDims S10000x256 S1 S10000x128 where
  updateWindowDims := [0, 1]
  insertedWindowDims := []
  scatterDimsToOperandDims := [1]
  indexVectorDim := 0
  wf := scatter_S10000x256_S1_S10000x128_01_n_1_0_wf
def scatter_S10000x256_S1_S10000_0_1_1_0 : ScatterDims S10000x256 S1 S10000 where
  updateWindowDims := [0]
  insertedWindowDims := [1]
  scatterDimsToOperandDims := [1]
  indexVectorDim := 0
  wf := scatter_S10000x256_S1_S10000_0_1_1_0_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S400x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩
abbrev S10000 : Shape := ⟨1, ![10000]⟩
abbrev S10000x1 : Shape := ⟨2, ![10000, 1]⟩

abbrev nBuf : Space → Nat
  | .hbm => 10
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000, .f32⟩
  | .hbm, ⟨7, _⟩ => ⟨S10000x1, .f32⟩
  | .hbm, ⟨8, _⟩ => ⟨S10000x128, .f32⟩
  | .hbm, ⟨9, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S10000x10000_S10000_d1 : S10000x10000.ReducesTo [1] S10000
  h_S_ : 0 < S_.numel
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.MeanAggregation.lean ====
/-
  The function both programs compute, and the law that joins their two arrangements of it.

  For features `x : [10000, 128]`, a dense adjacency `A : [10000, 10000]` and a weight `W : [128, 128]` the layer's output is
  the neighbourhood mean of the transformed features: at row `r` and column `j`

      out r j = (∑ k, A r k · (∑ d, x k d · W d j)) / (∑ k, A r k)                                  (transform, then aggregate)

  The kernel aggregates first, against the widened array `e = [x | 1 | 0 … 0]`, and transforms afterwards:

      out r j = (∑ d, (∑ k, A r k · e k d) · W d j) / (∑ k, A r k · e k 128)                        (aggregate, then transform)

  With `e k d = x k d` for `d < 128` and `e k 128 = 1`, the denominators agree on every extended real (`a · 1 = a`), and the
  numerators agree when every entry is a REAL number: distributivity and an exchange of the two sums. On the extended
  reals distributivity fails at infinities, so the finiteness of the inputs is used exactly there.
-/
import Idealize.ShloMosaic.PureOps.Ideal
import Idealize.ShloMosaic.Lib.ValueIdx
import proofs.«130859_g21887153340602_cont_8to1_460_5_alg».proof.Proof.LibSumSwap

noncomputable section

namespace MeanAggregation

open Idealize.ShloMosaic Idealize.ShloMosaic.ValueIdx

abbrev SX : Shape := ⟨2, ![10000, 128]⟩
abbrev SA : Shape := ⟨2, ![10000, 10000]⟩
abbrev SW : Shape := ⟨2, ![128, 128]⟩
abbrev SE : Shape := ⟨2, ![10000, 256]⟩

/-- Column `d` of the feature part of the widened array, and the column of ones. -/
abbrev colX (d : Fin 128) : Fin 256 := ⟨d.val, by have := d.isLt; omega⟩
abbrev colOne : Fin 256 := ⟨128, by decide⟩

/-- Transform, then aggregate, then divide by the row sum: entry `(r, j)`. -/
def outAt (x : SX.Idx → EReal) (A : SA.Idx → EReal) (W : SW.Idx → EReal) (r : Fin 10000) (j : Fin 128) : EReal :=
  Ideal.div (∑ k : Fin 10000, A (ix2 r k) * ∑ d : Fin 128, x (ix2 k d) * W (ix2 d j)) (∑ k : Fin 10000, A (ix2 r k))

/-- The layer's output as one function of the three arrays, index by index. -/
def out (x : SX.Idx → EReal) (A : SA.Idx → EReal) (W : SW.Idx → EReal) : SX.Idx → EReal :=
  fun i => outAt x A W (i 0) (i 1)

theorem out_apply (x : SX.Idx → EReal) (A : SA.Idx → EReal) (W : SW.Idx → EReal) (r : Fin 10000) (j : Fin 128) :
    out x A W (ix2 r j) = outAt x A W r j := rfl

/-- Aggregate against the widened array, then transform, then divide by the aggregated column of ones: entry `(r, j)`. -/
def fusedAt (e : SE.Idx → EReal) (A : SA.Idx → EReal) (W : SW.Idx → EReal) (r : Fin 10000) (j : Fin 128) : EReal :=
  Ideal.div (∑ d : Fin 128, (∑ k : Fin 10000, A (ix2 r k) * e (ix2 k (colX d))) * W (ix2 d j))
    (∑ k : Fin 10000, A (ix2 r k) * e (ix2 k colOne))

/-- THE LAW: for real entries, and a widened array that holds `x` in its first 128 columns and ones in column 128, the two
    arrangements are one number. -/
theorem fusedAt_eq_outAt (x : SX.Idx → EReal) (A : SA.Idx → EReal) (W : SW.Idx → EReal) (e : SE.Idx → EReal)
    (hx : ∀ i, ∃ v : ℝ, x i = v) (hA : ∀ i, ∃ v : ℝ, A i = v) (hW : ∀ i, ∃ v : ℝ, W i = v)
    (heX : ∀ k d, e (ix2 k (colX d)) = x (ix2 k d)) (heOne : ∀ k, e (ix2 k colOne) = 1) (r : Fin 10000) (j : Fin 128) :
    fusedAt e A W r j = outAt x A W r j := by
  unfold fusedAt outAt
  choose x' hx' using hx
  choose A' hA' using hA
  choose W' hW' using hW
  refine congrArg₂ Ideal.div ?_ ?_
  · simp only [heX, hx', hA', hW']
    exact SumSwap.sum_mul_sum_swap (fun k => A' (ix2 r k)) (fun k d => x' (ix2 k d)) (fun d => W' (ix2 d j))
  · simp only [heOne, mul_one]

end MeanAggregation

end
-- ==== Proof.Payload.lean ====
/-
  The kernel body's stored value, read at one entry of the output block.

  With `a : [400, 10000]` the block of rows of the adjacency, `e : [10000, 256]` the widened feature array and
  `w : [128, 128]` the weight, the body computes `acc = a · e : [400, 256]` (one matrix product into a zero accumulator),
  then `(acc[:, 0:128] · w) / acc[:, 128:129]`, the quotient broadcast along the row. At the ideal values, at row `p` and
  column `j` of the block, that is

      (∑ d < 128, (∑ k < 10000, a p k · e k d) · w d j)  /  (∑ k < 10000, a p k · e k 128).
-/
import proofs.«130859_g21887153340602_cont_8to1_460_5_alg».proof.Proof.Gen.KernelIdeal.Skeleton
import proofs.«130859_g21887153340602_cont_8to1_460_5_alg».proof.Proof.MeanAggregation
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- The two products' dimension numbers: rows × contraction times contraction × columns, no batch axis. -/
abbrev D1 := dot_S400x10000_S10000x256_S400x256_1_0_0_1_n_n
abbrev D2 := dot_S400x128_S128x128_S400x128_1_0_0_1_n_n

open MeanAggregation (colX colOne)

/-! ## The first product at an index: the operand indices, then the sum -/

theorem lhs1_0 (i : S400x256.Idx) (q : D1.contr.Idx) : (D1.lhsIdx i q 0).val = (i 0).val := by
  unfold DotDims.lhsIdx
  rw [dif_neg (show ¬(0 : Fin S400x10000.rank) ∈ D1.lhsBatch by decide), dif_pos (show (0 : Fin S400x10000.rank) ∈ D1.lhsNonContracting by decide)]
  rfl
theorem lhs1_1 (i : S400x256.Idx) (q : D1.contr.Idx) : (D1.lhsIdx i q 1).val = (q ⟨0, by decide⟩).val :=
  D1.lhsIdx_val_of_single rfl i q
theorem rhs1_0 (i : S400x256.Idx) (q : D1.contr.Idx) : (D1.rhsIdx i q 0).val = (q ⟨0, by decide⟩).val :=
  D1.rhsIdx_val_of_single rfl i q
theorem rhs1_1 (i : S400x256.Idx) (q : D1.contr.Idx) : (D1.rhsIdx i q 1).val = (i 1).val := by
  unfold DotDims.rhsIdx
  rw [dif_neg (show ¬(1 : Fin S10000x256.rank) ∈ D1.rhsBatch by decide), dif_pos (show (1 : Fin S10000x256.rank) ∈ D1.rhsNonContracting by decide)]
  rfl

/-- Entry `(p, c)` of `a · e` is the sum over the 10000 contraction positions of `a p k · e k c`. -/
theorem product1_apply (A : FVec Ideal S400x10000 .bf16) (X : FVec Ideal S10000x256 .bf16) (p : Fin 400) (c : Fin 256) :
    matmul D1 none A X (constant S400x256 .f32 0x00000000#32) (ix2 p c) = ∑ k : Fin 10000, A (ix2 p k) * X (ix2 k c) := by
  simp only [matmul]
  rw [Ideal.matmul_constant_zero_apply, ← Equiv.sum_comp (contrEquiv1 D1 10000 rfl rfl).symm]
  refine Finset.sum_congr rfl fun k _ => ?_
  have hk := contrEquiv1_symm_val D1 10000 rfl rfl k
  have el : D1.lhsIdx (ix2 p c) ((contrEquiv1 D1 10000 rfl rfl).symm k) = ix2 p k := funext fun a => Fin.ext (by
    match a with
    | ⟨0, _⟩ => exact lhs1_0 _ _
    | ⟨1, _⟩ => exact (lhs1_1 _ _).trans hk)
  have er : D1.rhsIdx (ix2 p c) ((contrEquiv1 D1 10000 rfl rfl).symm k) = ix2 k c := funext fun a => Fin.ext (by
    match a with
    | ⟨0, _⟩ => exact (rhs1_0 _ _).trans hk
    | ⟨1, _⟩ => exact rhs1_1 _ _)
  rw [el, er]

/-! ## The second product at an index -/

theorem lhs2_0 (i : S400x128.Idx) (q : D2.contr.Idx) : (D2.lhsIdx i q 0).val = (i 0).val := by
  unfold DotDims.lhsIdx
  rw [dif_neg (show ¬(0 : Fin S400x128.rank) ∈ D2.lhsBatch by decide), dif_pos (show (0 : Fin S400x128.rank) ∈ D2.lhsNonContracting by decide)]
  rfl
theorem lhs2_1 (i : S400x128.Idx) (q : D2.contr.Idx) : (D2.lhsIdx i q 1).val = (q ⟨0, by decide⟩).val :=
  D2.lhsIdx_val_of_single rfl i q
theorem rhs2_0 (i : S400x128.Idx) (q : D2.contr.Idx) : (D2.rhsIdx i q 0).val = (q ⟨0, by decide⟩).val :=
  D2.rhsIdx_val_of_single rfl i q
theorem rhs2_1 (i : S400x128.Idx) (q : D2.contr.Idx) : (D2.rhsIdx i q 1).val = (i 1).val := by
  unfold DotDims.rhsIdx
  rw [dif_neg (show ¬(1 : Fin S128x128.rank) ∈ D2.rhsBatch by decide), dif_pos (show (1 : Fin S128x128.rank) ∈ D2.rhsNonContracting by decide)]
  rfl

/-- Entry `(p, j)` of `l · w` is the sum over the 128 contraction positions of `l p d · w d j`. -/
theorem product2_apply (L : FVec Ideal S400x128 .f32) (W : FVec Ideal S128x128 .f32) (p : Fin 400) (j : Fin 128) :
    matmul D2 none L W (constant S400x128 .f32 0x00000000#32) (ix2 p j) = ∑ d : Fin 128, L (ix2 p d) * W (ix2 d j) := by
  simp only [matmul]
  rw [Ideal.matmul_constant_zero_apply, ← Equiv.sum_comp (contrEquiv1 D2 128 rfl rfl).symm]
  refine Finset.sum_congr rfl fun k _ => ?_
  have hk := contrEquiv1_symm_val D2 128 rfl rfl k
  have el : D2.lhsIdx (ix2 p j) ((contrEquiv1 D2 128 rfl rfl).symm k) = ix2 p k := funext fun a => Fin.ext (by
    match a with
    | ⟨0, _⟩ => exact lhs2_0 _ _
    | ⟨1, _⟩ => exact (lhs2_1 _ _).trans hk)
  have er : D2.rhsIdx (ix2 p j) ((contrEquiv1 D2 128 rfl rfl).symm k) = ix2 k j := funext fun a => Fin.ext (by
    match a with
    | ⟨0, _⟩ => exact (rhs2_0 _ _).trans hk
    | ⟨1, _⟩ => exact rhs2_1 _ _)
  rw [el, er]

/-! ## The body's value -/

/-- The first product as the body forms it: the adjacency block rounded to bf16 (nothing, at the ideal values) times the
    widened array, into zeros. -/
def acc (v0 : FVec Ideal S400x10000 .f32) (v2 : FVec Ideal S10000x256 .bf16) : FVec Ideal S400x256 .f32 :=
  matmul D1 none (truncf .bf16 v0 Facts₀.bitsLt_bf16_f32) (shapeCast S10000x256 v2 Facts₀.shapeCasts_S10000x256_S10000x256)
    (constant S400x256 .f32 0x00000000#32)

theorem acc_apply (v0 : FVec Ideal S400x10000 .f32) (v2 : FVec Ideal S10000x256 .bf16) (p : Fin 400) (c : Fin 256) :
    acc v0 v2 (ix2 p c) = ∑ k : Fin 10000, v0 (ix2 p k) * v2 (ix2 k c) := by
  unfold acc
  rw [product1_apply, shapeCast_self]
  rfl

/-- The stored value is the quotient of the second product by the broadcast column of row sums. -/
theorem pay_eq (v0 : FVec Ideal S400x10000 .f32) (v2 : FVec Ideal S10000x256 .bf16) (v7 : FVec Ideal S128x128 .f32) :
    k0_pay1 (F := Ideal) v0 v2 v7
      = divf (matmul D2 none (extractStridedSlice S400x128 ![0, 0] (acc v0 v2) Facts₀.slices_S400x256_o0_0_S400x128) v7
            (constant S400x128 .f32 0x00000000#32))
          (broadcastTo S400x128 (extractStridedSlice S400x1 ![0, 128] (acc v0 v2) Facts₀.slices_S400x256_o0_128_S400x1)
            Facts₀.broadcasts_S400x1_S400x128) := rfl

/-- The stored value at row `p`, column `j` of the block. -/
theorem pay_apply (v0 : FVec Ideal S400x10000 .f32) (v2 : FVec Ideal S10000x256 .bf16) (v7 : FVec Ideal S128x128 .f32)
    (p : Fin 400) (j : Fin 128) :
    k0_pay1 (F := Ideal) v0 v2 v7 (ix2 p j)
      = Ideal.div (∑ d : Fin 128, (∑ k : Fin 10000, v0 (ix2 p k) * v2 (ix2 k (colX d))) * v7 (ix2 d j))
          (∑ k : Fin 10000, v0 (ix2 p k) * v2 (ix2 k colOne)) := by
  rw [pay_eq, divf_apply]
  refine congrArg₂ Ideal.div ?_ ?_
  · rw [product2_apply]
    refine Finset.sum_congr rfl fun d _ => congrArg (· * v7 (ix2 d j)) ?_
    rw [slice2_axis1_apply 0 (acc v0 v2) Facts₀.slices_S400x256_o0_0_S400x128 p d (colX d) (Nat.zero_add _).symm]
    exact acc_apply v0 v2 p (colX d)
  · rw [broadcastTo_apply _ Facts₀.broadcasts_S400x1_S400x128 (ix2 p j) (ix2 p (0 : Fin 1)) (fun a => by
      match a with
      | ⟨0, _⟩ => show p.val = if (400 : Nat) = 1 then 0 else p.val; rw [if_neg (by decide)]
      | ⟨1, _⟩ => show 0 = if (1 : Nat) = 1 then 0 else j.val; rw [if_pos rfl])]
    rw [slice2_axis1_apply 128 (acc v0 v2) Facts₀.slices_S400x256_o0_128_S400x1 p (0 : Fin 1) colOne rfl]
    exact acc_apply v0 v2 p colOne

/-- The same against the whole arrays: when row `p` of the adjacency block is row `r` of the adjacency `A`, and the
    other two blocks are the widened array `E` and the weight `W`, the stored value at `(p, j)` is the aggregate-then-transform
    arrangement of the layer at `(r, j)`. -/
theorem pay_fused (a : FVec Ideal S400x10000 .f32) (e : FVec Ideal S10000x256 .bf16) (w : FVec Ideal S128x128 .f32)
    (E : MeanAggregation.SE.Idx → EReal) (A : MeanAggregation.SA.Idx → EReal) (W : MeanAggregation.SW.Idx → EReal)
    (p : Fin 400) (j : Fin 128) (r : Fin 10000)
    (ha : ∀ k : Fin 10000, a (ix2 p k) = A (ix2 r k)) (he : ∀ i, e i = E i) (hw : ∀ i, w i = W i) :
    k0_pay1 (F := Ideal) a e w (ix2 p j) = MeanAggregation.fusedAt E A W r j := by
  rw [pay_apply]
  unfold MeanAggregation.fusedAt
  simp only [ha, he, hw]

end Cert.KernelIdeal.Payload

end
-- ==== Proof.LibScatterSet.lean ====
/-
  A host scatter whose update body returns the update (an `x.at[…].set(v)`), read at ONE index of its result.

  The scatter is a left fold over the update indices in row-major order: each update whose landing index is inside
  the operand overwrites the element there. Read at a fixed result index `i'`:
  * if no update lands on `i'`, the element is the operand's;
  * if some update lands on `i'` and every update that lands there carries the same value `v`, the element is `v`
    (in particular when exactly one update lands there).
  Nothing is assumed of the dimension numbers: which update lands where is the caller's to compute.
-/
import Idealize.ShloMosaic.PureOps

namespace Idealize.ShloMosaic

variable {s si u : Shape} {α : Type} {w : Nat}

/-- One step of the fold of a "set" scatter: update number `n` overwrites the element at its landing index, if it has one. -/
def Host.scatterSetStep (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- A "set" scatter is the fold of that step over the update numbers in order. -/
theorem Host.scatter_set_eq_foldl (d : ScatterDims s si u) (x : s.Idx → α) (idx : IVec si w) (upd : u.Idx → α) :
    Host.scatter d (fun _ b => b) x idx upd = (List.finRange u.numel).foldl (Host.scatterSetStep d idx upd) x := rfl

/-- A step whose update does not land on `i'` leaves the element at `i'` alone. -/
theorem Host.scatterSetStep_of_ne (d : ScatterDims s si u) (idx : IVec si w) (upd : u.Idx → α) (r : s.Idx → α)
    (n : Fin u.numel) (i' : s.Idx) (h : d.resultIdx? (u.rowMajor.symm n) idx ≠ some i') :
    Host.scatterSetStep d idx upd r n i' = r i' := by
  unfold Host.scatterSetStep
  cases hr : d.resultIdx? (u.rowMajor.symm n) idx with
  | none => rfl
  | some i => exact if_neg fun e => h (by rw [hr, e])

/-- A step whose update lands on `i'` leaves the update's value there. -/
theorem Host.scatterSetStep_of_eq (d : ScatterDims s si u) (idx : IVec si w) (upd : u.Idx → α) (r : s.Idx → α)
    (n : Fin u.numel) (i' : s.Idx) (h : d.resultIdx? (u.rowMajor.symm n) idx = some i') :
    Host.scatterSetStep d idx upd r n i' = upd (u.rowMajor.symm n) := by
  unfold Host.scatterSetStep
  rw [h]
  exact if_pos rfl

/-- Folding steps none of which lands on `i'` leaves the element at `i'` alone. -/
theorem Host.foldl_scatterSetStep_of_miss (d : ScatterDims s si u) (idx : IVec si w) (upd : u.Idx → α) (i' : s.Idx)
    (l : List (Fin u.numel)) (x : s.Idx → α) (h : ∀ n ∈ l, d.resultIdx? (u.rowMajor.symm n) idx ≠ some i') :
    l.foldl (Host.scatterSetStep d idx upd) x i' = x i' := by
  induction l generalizing x with
  | nil => rfl
  | cons a l ih =>
    rw [List.foldl_cons, ih _ fun n hn => h n (List.mem_cons_of_mem _ hn)]
    exact Host.scatterSetStep_of_ne d idx upd x a i' (h a List.mem_cons_self)

/-- Folding steps of which at least one lands on `i'`, all those that do carrying the value `v`, leaves `v` at `i'`:
    the last one to land there wrote it. -/
theorem Host.foldl_scatterSetStep_of_hit (d : ScatterDims s si u) (idx : IVec si w) (upd : u.Idx → α) (i' : s.Idx) (v : α)
    (l : List (Fin u.numel)) (x : s.Idx → α)
    (hex : ∃ n ∈ l, d.resultIdx? (u.rowMajor.symm n) idx = some i')
    (hv : ∀ n ∈ l, d.resultIdx? (u.rowMajor.symm n) idx = some i' → upd (u.rowMajor.symm n) = v) :
    l.foldl (Host.scatterSetStep d idx upd) x i' = v := by
  induction l generalizing x with
  | nil => obtain ⟨n, hn, _⟩ := hex; cases hn
  | cons a l ih =>
    rw [List.foldl_cons]
    by_cases hl : ∃ n ∈ l, d.resultIdx? (u.rowMajor.symm n) idx = some i'
    · exact ih _ hl fun n hn => hv n (List.mem_cons_of_mem _ hn)
    · have hmiss : ∀ n ∈ l, d.resultIdx? (u.rowMajor.symm n) idx ≠ some i' := fun n hn e => hl ⟨n, hn, e⟩
      have ha : d.resultIdx? (u.rowMajor.symm a) idx = some i' := by
        obtain ⟨n, hn, e⟩ := hex
        rcases List.mem_cons.1 hn with rfl | hn'
        · exact e
        · exact absurd e (hmiss n hn')
      rw [Host.foldl_scatterSetStep_of_miss d idx upd i' l _ hmiss, Host.scatterSetStep_of_eq d idx upd x a i' ha]
      exact hv a List.mem_cons_self ha

/-- A "set" scatter read at an index NO update lands on: the operand's element. -/
theorem Host.scatter_set_apply_of_miss (d : ScatterDims s si u) (x : s.Idx → α) (idx : IVec si w) (upd : u.Idx → α)
    (i' : s.Idx) (h : ∀ j : u.Idx, d.resultIdx? j idx ≠ some i') :
    Host.scatter d (fun _ b => b) x idx upd i' = x i' := by
  rw [Host.scatter_set_eq_foldl]
  exact Host.foldl_scatterSetStep_of_miss d idx upd i' _ x fun n _ => h _

/-- A "set" scatter read at an index some update lands on, every update landing there carrying `v`: it is `v`. -/
theorem Host.scatter_set_apply_of_hit (d : ScatterDims s si u) (x : s.Idx → α) (idx : IVec si w) (upd : u.Idx → α)
    (i' : s.Idx) (v : α) (hex : ∃ j : u.Idx, d.resultIdx? j idx = some i')
    (hv : ∀ j : u.Idx, d.resultIdx? j idx = some i' → upd j = v) :
    Host.scatter d (fun _ b => b) x idx upd i' = v := by
  rw [Host.scatter_set_eq_foldl]
  obtain ⟨j0, hj0⟩ := hex
  exact Host.foldl_scatterSetStep_of_hit d idx upd i' v _ x
    ⟨u.rowMajor j0, List.mem_finRange _, by rw [Equiv.symm_apply_apply]; exact hj0⟩ fun n _ e => hv _ e

/-- Update index `j` lands on `i` exactly when, on every operand axis, its start plus its window coordinate is `i`'s
    coordinate (as integers: the start is read signed). -/
theorem ScatterDims.resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hc
      have e := Option.some.inj h
      intro a
      rw [← e]
      exact (Int.toNat_of_nonneg (hc a).1).symm
    · cases h
  · intro h
    have hc : ∀ a, 0 ≤ d.start j idx a + (d.window j a : Int) ∧ d.start j idx a + (d.window j a : Int) < s.size a := fun a => by
      rw [h a]; exact ⟨Int.natCast_nonneg _, by exact_mod_cast (i a).isLt⟩
    rw [dif_pos hc]
    refine congrArg some (funext fun a => Fin.ext ?_)
    show (d.start j idx a + (d.window j a : Int)).toNat = (i a).val
    rw [h a]; exact Int.toNat_natCast _

end Idealize.ShloMosaic
-- ==== Proof.OnesColumn.lean ====
/-
  The array the kernel's second operand holds when the region is entered.

  Before the call the host builds, from `x : [10000, 128]`, the array `[x | 1 | 0 … 0] : [10000, 256]`: zeros, then
  `x` written over columns 0 … 127, then a column of ones written at column 128, the whole cast to bf16 (at the ideal
  values the cast changes nothing). Both writes are scatters at ONE literal start index whose body returns the update;
  read at an index they are: in columns 0 … 127 the entry of `x`, in column 128 the number 1.
-/
import proofs.«130859_g21887153340602_cont_8to1_460_5_alg».proof.Proof.Gen.KernelIdeal
import proofs.«130859_g21887153340602_cont_8to1_460_5_alg».proof.Proof.LibScatterSet
import Idealize.ShloMosaic.Lib.ValueIdx
import Idealize.ShloMosaic.PureOps.Ideal.Laws

noncomputable section

namespace Cert.KernelIdeal.OnesColumn

open Idealize.ShloMosaic Idealize.ShloMosaic.ValueIdx Cert.KernelIdeal Cert.KernelIdeal.Facts₀

/-- The dimension numbers of the write of `x` into columns 0 … 127, and of the write of the ones into column 128. -/
abbrev dX := scatter_S10000x256_S1_S10000x128_01_n_1_0
abbrev dOne := scatter_S10000x256_S1_S10000_0_1_1_0

/-- The two literal start indices: column 0 and column 128. -/
abbrev at0 : IVec S1 32 := broadcastInDim S1 ![] bcast_S_S1 (constantI S_ 32 0#32)
abbrev at128 : IVec S1 32 := broadcastInDim S1 ![] bcast_S_S1 (constantI S_ 32 128#32)

variable {F : FTy → Type} [FloatOps F]

/-- The array of zeros written first, and the vector of ones. -/
abbrev zeros : FVec F S10000x256 .f32 := broadcastInDim S10000x256 ![] bcast_S_S10000x256 (constant S_ .f32 0x00000000#32)
abbrev ones : FVec F S10000 .f32 := broadcastInDim S10000 ![] bcast_S_S10000 (constant S_ .f32 0x3F800000#32)

/-- `[x | 1 | 0 … 0]` as the host computes it. -/
def widened (x : FVec F S10000x128 .f32) : FVec F S10000x256 .bf16 :=
  truncf .bf16 (Host.scatter dOne (fun _ b => b) (Host.scatter dX (fun _ b => b) zeros at0 x) at128 ones) bitsLt_bf16_f32

/-! ## Where each update lands -/

/-- The write of `x` starts at row 0, column 0 … -/
theorem start_dX (j : S10000x128.Idx) (a : Fin 2) : dX.start j at0 a = 0 := by
  unfold ScatterDims.start
  split
  · show (0#32 : BitVec 32).toInt = 0
    decide
  · rfl
/-- … and its window coordinates are the update's own. -/
theorem window_dX_0 (j : S10000x128.Idx) : dX.window j 0 = (j 0).val := by
  unfold ScatterDims.window
  rw [dif_pos (by decide)]
  rfl
theorem window_dX_1 (j : S10000x128.Idx) : dX.window j 1 = (j 1).val := by
  unfold ScatterDims.window
  rw [dif_pos (by decide)]
  rfl

/-- The write of the ones starts at row 0, column 128 … -/
theorem start_dOne_0 (j : S10000.Idx) : dOne.start j at128 0 = 0 := by
  unfold ScatterDims.start
  rw [dif_neg (by decide)]
theorem start_dOne_1 (j : S10000.Idx) : dOne.start j at128 1 = 128 := by
  unfold ScatterDims.start
  rw [dif_pos (by decide)]
  show (128#32 : BitVec 32).toInt = 128
  decide
/-- … and its window is one column wide: the update's coordinate is the row. -/
theorem window_dOne_0 (j : S10000.Idx) : dOne.window j 0 = (j 0).val := by
  unfold ScatterDims.window
  rw [dif_pos (by decide)]
  rfl
theorem window_dOne_1 (j : S10000.Idx) : dOne.window j 1 = 0 := by
  unfold ScatterDims.window
  rw [dif_neg (by decide)]

/-- Entry `(k, d)` of `x` lands on `(k, d)`, and nothing else does. -/
theorem lands_dX (j : S10000x128.Idx) (i : S10000x256.Idx) :
    dX.resultIdx? j at0 = some i ↔ (j 0).val = (i 0).val ∧ (j 1).val = (i 1).val := by
  rw [ScatterDims.resultIdx?_eq_some_iff]
  constructor
  · intro h
    have h0 := h 0
    have h1 := h 1
    rw [start_dX, window_dX_0] at h0
    rw [start_dX, window_dX_1] at h1
    omega
  · rintro ⟨h0, h1⟩ a
    match a with
    | ⟨0, _⟩ =>
      show dX.start j at0 0 + (dX.window j 0 : Int) = ((i 0).val : Int)
      rw [start_dX, window_dX_0]; omega
    | ⟨1, _⟩ =>
      show dX.start j at0 1 + (dX.window j 1 : Int) = ((i 1).val : Int)
      rw [start_dX, window_dX_1]; omega

/-- One number `k` lands on `(k, 128)`, and nothing else does. -/
theorem lands_dOne (j : S10000.Idx) (i : S10000x256.Idx) :
    dOne.resultIdx? j at128 = some i ↔ (j 0).val = (i 0).val ∧ (i 1).val = 128 := by
  rw [ScatterDims.resultIdx?_eq_some_iff]
  constructor
  · intro h
    have h0 := h 0
    have h1 := h 1
    rw [start_dOne_0, window_dOne_0] at h0
    rw [start_dOne_1, window_dOne_1] at h1
    omega
  · rintro ⟨h0, h1⟩ a
    match a with
    | ⟨0, _⟩ =>
      show dOne.start j at128 0 + (dOne.window j 0 : Int) = ((i 0).val : Int)
      rw [start_dOne_0, window_dOne_0]; omega
    | ⟨1, _⟩ =>
      show dOne.start j at128 1 + (dOne.window j 1 : Int) = ((i 1).val : Int)
      rw [start_dOne_1, window_dOne_1]; omega

/-! ## The array read at an index -/

/-- The f32 pattern of `1.0` is the number one. -/
theorem one_f32 : Ideal.ofBits .f32 0x3F800000#32 = 1 := IdealRules.sign_bit.ideal_onePat .f32

/-- Column 128 holds ones. -/
theorem widened_one (x : FVec Ideal S10000x128 .f32) (k : Fin 10000) (c : Fin 256) (hc : c.val = 128) :
    widened x (ix2 k c) = 1 := by
  unfold widened
  rw [truncf_apply]
  refine (Host.scatter_set_apply_of_hit dOne _ at128 ones (ix2 k c) (Ideal.ofBits .f32 0x3F800000#32)
    ⟨ix1 k, (lands_dOne _ _).2 ⟨rfl, hc⟩⟩ (fun _ _ => rfl)).trans one_f32

/-- Columns 0 … 127 hold `x`. -/
theorem widened_left (x : FVec Ideal S10000x128 .f32) (k : Fin 10000) (c : Fin 256) (d : Fin 128) (hc : c.val = d.val) :
    widened x (ix2 k c) = x (ix2 k d) := by
  unfold widened
  rw [truncf_apply]
  rw [Host.scatter_set_apply_of_miss dOne _ at128 ones (ix2 k c) fun j h => by
    have h1 : (c : Nat) = 128 := ((lands_dOne j _).1 h).2
    have := d.isLt
    omega]
  refine Host.scatter_set_apply_of_hit dX zeros at0 x (ix2 k c) (x (ix2 k d)) ⟨ix2 k d, (lands_dX _ _).2 ⟨rfl, hc.symm⟩⟩ fun j h => ?_
  obtain ⟨h0, h1⟩ := (lands_dX j _).1 h
  have e : j = ix2 k d := by
    rw [eq_ix2 j]
    have e0 : j 0 = k := Fin.ext h0
    have e1 : j 1 = d := Fin.ext (h1.trans hc)
    rw [e0, e1]
    rfl
  rw [e]

end Cert.KernelIdeal.OnesColumn

end
-- ==== Proof.WidenedOnEntry.lean ====
/-
  When the region is entered, the array the kernel's second operand is staged from holds the widened feature array
  `[x | 1 | 0 … 0]` (OnesColumn.lean) of the first argument.

  Eleven host operations run before the call: two constants and their broadcasts (the zeros, the start index 0), the write
  of `x`, two more constants and broadcasts (the start index 128, the ones), the write of the ones, and the cast. Each
  operation's result is a function of the results before it; composing them in order gives `widened x`. The composition
  is first read with the three array-valued operations as ARBITRARY functions of their operands, then instantiated at
  the two writes and the cast.
-/
import proofs.«130859_g21887153340602_cont_8to1_460_5_alg».proof.Proof.Gen.KernelIdeal.Frame
import proofs.«130859_g21887153340602_cont_8to1_460_5_alg».proof.Proof.OnesColumn
import Idealize.ShloMosaic.Lib.StableHlo.Run

noncomputable section

open Idealize.ShloMosaic Idealize.ShloMosaic.TcCoe Idealize.SL.Sem

namespace Cert.KernelIdeal.WidenedOnEntry

open Cert.KernelIdeal Cert.KernelIdeal.Gen Idealize.ShloMosaic.StableHlo

variable (m : (ℓ : Loc nD τ sig) → Buf (Elt Ideal) ℓ)

/-- The write of `x`, the write of the ones and the cast, each as a function of its operands. -/
abbrev writeX : FVec Ideal S10000x256 .f32 → IVec S1 32 → FVec Ideal S10000x128 .f32 → FVec Ideal S10000x256 .f32 :=
  fun x i u => Host.scatter scatter_S10000x256_S1_S10000x128_01_n_1_0 (fun _ b => b) x i u
abbrev writeOnes : FVec Ideal S10000x256 .f32 → IVec S1 32 → FVec Ideal S10000 .f32 → FVec Ideal S10000x256 .f32 :=
  fun x i u => Host.scatter scatter_S10000x256_S1_S10000_0_1_1_0 (fun _ b => b) x i u
abbrev toBf16 : FVec Ideal S10000x256 .f32 → FVec Ideal S10000x256 .bf16 := fun x => truncf .bf16 x Facts₀.bitsLt_bf16_f32

/-- The host operations before the call, with the three array-valued operations named. -/
theorem hostOps_eq : (hostOps0 (F := Ideal) : List (HloOp τ sig (Elt Ideal))) =
      [ TRef.nullary (.of main_call0_cst : TRef sig ⟨S_, .f32⟩) (constant (F := Ideal) S_ .f32 0x00000000#32),
        TRef.unary (.of main_call0_cst : TRef sig ⟨S_, .f32⟩) (.of main_call0_v0 : TRef sig ⟨S10000x256, .f32⟩) (broadcastInDim S10000x256 ![] Facts₀.bcast_S_S10000x256),
        TRef.nullary (.of main_call0_c : TRef sig ⟨S_, .i32⟩) (constantI S_ 32 0#32),
        TRef.unary (.of main_call0_c : TRef sig ⟨S_, .i32⟩) (.of main_call0_v1 : TRef sig ⟨S1, .i32⟩) (broadcastInDim S1 ![] Facts₀.bcast_S_S1),
        TRef.ternary (.of main_call0_v0 : TRef sig ⟨S10000x256, .f32⟩) (.of main_call0_v1 : TRef sig ⟨S1, .i32⟩) (.of main_arg0 : TRef sig ⟨S10000x128, .f32⟩) (.of main_call0_v2 : TRef sig ⟨S10000x256, .f32⟩) writeX,
        TRef.nullary (.of main_call0_c_0 : TRef sig ⟨S_, .i32⟩) (constantI S_ 32 128#32),
        TRef.unary (.of main_call0_c_0 : TRef sig ⟨S_, .i32⟩) (.of main_call0_v3 : TRef sig ⟨S1, .i32⟩) (broadcastInDim S1 ![] Facts₀.bcast_S_S1),
        TRef.nullary (.of main_call0_cst_1 : TRef sig ⟨S_, .f32⟩) (constant (F := Ideal) S_ .f32 0x3F800000#32),
        TRef.unary (.of main_call0_cst_1 : TRef sig ⟨S_, .f32⟩) (.of main_call0_v4 : TRef sig ⟨S10000, .f32⟩) (broadcastInDim S10000 ![] Facts₀.bcast_S_S10000),
        TRef.ternary (.of main_call0_v2 : TRef sig ⟨S10000x256, .f32⟩) (.of main_call0_v3 : TRef sig ⟨S1, .i32⟩) (.of main_call0_v4 : TRef sig ⟨S10000, .f32⟩) (.of main_call0_v5 : TRef sig ⟨S10000x256, .f32⟩) writeOnes,
        TRef.unary (.of main_call0_v5 : TRef sig ⟨S10000x256, .f32⟩) (.of main_call0_v6 : TRef sig ⟨S10000x256, .bf16⟩) toBf16 ] := rfl

/-- Eleven operations of that shape, whatever their functions are, leave in the last result's buffer the composition
    of the functions, read from the first argument as launched. -/
theorem after_composed (c : Dev nD)
    (k0 : (⟨S_, .f32⟩ : BufTy).Contents (Elt Ideal)) (b0 : (⟨S_, .f32⟩ : BufTy).Contents (Elt Ideal) → (⟨S10000x256, .f32⟩ : BufTy).Contents (Elt Ideal))
    (k1 : (⟨S_, .i32⟩ : BufTy).Contents (Elt Ideal)) (b1 : (⟨S_, .i32⟩ : BufTy).Contents (Elt Ideal) → (⟨S1, .i32⟩ : BufTy).Contents (Elt Ideal))
    (g2 : (⟨S10000x256, .f32⟩ : BufTy).Contents (Elt Ideal) → (⟨S1, .i32⟩ : BufTy).Contents (Elt Ideal) → (⟨S10000x128, .f32⟩ : BufTy).Contents (Elt Ideal) → (⟨S10000x256, .f32⟩ : BufTy).Contents (Elt Ideal))
    (k3 : (⟨S_, .i32⟩ : BufTy).Contents (Elt Ideal)) (b3 : (⟨S_, .i32⟩ : BufTy).Contents (Elt Ideal) → (⟨S1, .i32⟩ : BufTy).Contents (Elt Ideal))
    (k4 : (⟨S_, .f32⟩ : BufTy).Contents (Elt Ideal)) (b4 : (⟨S_, .f32⟩ : BufTy).Contents (Elt Ideal) → (⟨S10000, .f32⟩ : BufTy).Contents (Elt Ideal))
    (g5 : (⟨S10000x256, .f32⟩ : BufTy).Contents (Elt Ideal) → (⟨S1, .i32⟩ : BufTy).Contents (Elt Ideal) → (⟨S10000, .f32⟩ : BufTy).Contents (Elt Ideal) → (⟨S10000x256, .f32⟩ : BufTy).Contents (Elt Ideal))
    (g6 : (⟨S10000x256, .f32⟩ : BufTy).Contents (Elt Ideal) → (⟨S10000x256, .bf16⟩ : BufTy).Contents (Elt Ideal)) :
    (StableHlo.after (τ := τ)
      [ TRef.nullary (.of main_call0_cst : TRef sig ⟨S_, .f32⟩) k0,
        TRef.unary (.of main_call0_cst : TRef sig ⟨S_, .f32⟩) (.of main_call0_v0 : TRef sig ⟨S10000x256, .f32⟩) b0,
        TRef.nullary (.of main_call0_c : TRef sig ⟨S_, .i32⟩) k1,
        TRef.unary (.of main_call0_c : TRef sig ⟨S_, .i32⟩) (.of main_call0_v1 : TRef sig ⟨S1, .i32⟩) b1,
        TRef.ternary (.of main_call0_v0 : TRef sig ⟨S10000x256, .f32⟩) (.of main_call0_v1 : TRef sig ⟨S1, .i32⟩) (.of main_arg0 : TRef sig ⟨S10000x128, .f32⟩) (.of main_call0_v2 : TRef sig ⟨S10000x256, .f32⟩) g2,
        TRef.nullary (.of main_call0_c_0 : TRef sig ⟨S_, .i32⟩) k3,
        TRef.unary (.of main_call0_c_0 : TRef sig ⟨S_, .i32⟩) (.of main_call0_v3 : TRef sig ⟨S1, .i32⟩) b3,
        TRef.nullary (.of main_call0_cst_1 : TRef sig ⟨S_, .f32⟩) k4,
        TRef.unary (.of main_call0_cst_1 : TRef sig ⟨S_, .f32⟩) (.of main_call0_v4 : TRef sig ⟨S10000, .f32⟩) b4,
        TRef.ternary (.of main_call0_v2 : TRef sig ⟨S10000x256, .f32⟩) (.of main_call0_v3 : TRef sig ⟨S1, .i32⟩) (.of main_call0_v4 : TRef sig ⟨S10000, .f32⟩) (.of main_call0_v5 : TRef sig ⟨S10000x256, .f32⟩) g5,
        TRef.unary (.of main_call0_v5 : TRef sig ⟨S10000x256, .f32⟩) (.of main_call0_v6 : TRef sig ⟨S10000x256, .bf16⟩) g6 ]
      (fun b => m (c, b)) (Proc.devRef .tc main_call0_v6) : (⟨S10000x256, .bf16⟩ : BufTy).Contents (Elt Ideal))
    = g6 (g5 (g2 (b0 k0) (b1 k1) (m ((c : Thread nD τ).loc main_arg0))) (b3 k3) (b4 k4)) := by
  after_results; rfl

/-- The composition of the host's own eleven operations. -/
theorem after_hostOps (c : Dev nD) :
    (StableHlo.after (τ := τ) (hostOps0 (F := Ideal)) (fun b => m (c, b)) (Proc.devRef .tc main_call0_v6) : (⟨S10000x256, .bf16⟩ : BufTy).Contents (Elt Ideal))
    = toBf16 (writeOnes (writeX ((broadcastInDim S10000x256 ![] Facts₀.bcast_S_S10000x256) (constant (F := Ideal) S_ .f32 0x00000000#32))
          ((broadcastInDim S1 ![] Facts₀.bcast_S_S1) (constantI S_ 32 0#32)) (m ((c : Thread nD τ).loc main_arg0)))
        ((broadcastInDim S1 ![] Facts₀.bcast_S_S1) (constantI S_ 32 128#32))
        ((broadcastInDim S10000 ![] Facts₀.bcast_S_S10000) (constant (F := Ideal) S_ .f32 0x3F800000#32))) := by
  rw [hostOps_eq]
  exact after_composed m c _ _ _ _ writeX _ _ _ _ writeOnes toBf16

/-- That composition is the widened array. -/
theorem composed_eq_widened (X : FVec Ideal S10000x128 .f32) :
    toBf16 (writeOnes (writeX ((broadcastInDim S10000x256 ![] Facts₀.bcast_S_S10000x256) (constant (F := Ideal) S_ .f32 0x00000000#32))
          ((broadcastInDim S1 ![] Facts₀.bcast_S_S1) (constantI S_ 32 0#32)) X)
        ((broadcastInDim S1 ![] Facts₀.bcast_S_S1) (constantI S_ 32 128#32))
        ((broadcastInDim S10000 ![] Facts₀.bcast_S_S10000) (constant (F := Ideal) S_ .f32 0x3F800000#32)))
      = OnesColumn.widened (F := Ideal) X := by
  unfold OnesColumn.widened
  rfl

/-- When the region is entered the second operand's array is the widened feature array. -/
theorem V_widened (c : Dev nD) :
    (V m c main_call0_v6 : S10000x256.Idx → EReal) = OnesColumn.widened (F := Ideal) (m ((c : Thread nD τ).loc main_arg0)) :=
  (after_hostOps m c).trans (composed_eq_widened _)

end Cert.KernelIdeal.WidenedOnEntry

end
-- ==== Proof.KernelValue.lean ====
/-
  The kernel's result array after the run is the aggregate-then-transform arrangement of the layer, index by index.

  The grid has 25 points; point `t` reads rows `400 t … 400 t + 399` of the adjacency, the whole widened array and the
  whole weight, and writes rows `400 t … 400 t + 399` of the result. The 25 row blocks tile the result array, so the
  array ends holding ONE function of the arguments: at `(r, j)`, `fusedAt (widened x) A W r j`.
-/
import proofs.«130859_g21887153340602_cont_8to1_460_5_alg».proof.Proof.Gen.KernelIdeal.Value
import proofs.«130859_g21887153340602_cont_8to1_460_5_alg».proof.Proof.Payload
import proofs.«130859_g21887153340602_cont_8to1_460_5_alg».proof.Proof.OnesColumn
import proofs.«130859_g21887153340602_cont_8to1_460_5_alg».proof.Proof.WidenedOnEntry

noncomputable section

open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the adjacency's and the result's row block is the point's number, every other
    block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The result as one function of the argument arrays. -/
def fused (c : Dev nD) : S10000x128.Idx → EReal := fun i =>
  MeanAggregation.fusedAt (OnesColumn.widened (F := Ideal) (m ((c : Thread nD τ).loc main_arg0)))
    (m ((c : Thread nD τ).loc main_arg1)) (m ((c : Thread nD τ).loc main_arg2)) (i 0) (i 1)

/-- Row `p` of the adjacency's block at point `t` is row `400 t + p` of the adjacency. -/
theorem iblk0_apply (c : Dev nD) (t : Fin cfg0.N) (p : Fin 400) (k : Fin 10000) (r : Fin 10000) (hr : r.val = t.val * 400 + p.val) :
    (iblk m c 0 t : FVec Ideal S400x10000 .f32) (ix2 p k)
      = (m ((c : Thread nD τ).loc main_arg1) : S10000x10000.Idx → EReal) (ix2 r k) := by
  obtain ⟨e0, e1, -⟩ := idx_facts t
  unfold iblk
  rw [View.read_apply]
  show V m c main_arg1 _ = _
  rw [V_main_arg1]
  refine congrArg _ (funext fun a => Fin.ext ?_)
  match a with
  | ⟨0, _⟩ => show win0_0.index t 0 * 400 + 1 * p.val = r.val; rw [e0, hr]; omega
  | ⟨1, _⟩ => show win0_0.index t 1 * 10000 + 1 * k.val = k.val; rw [e1]; omega

/-- The second operand's block at every point is the whole widened array. -/
theorem iblk1_apply (c : Dev nD) (t : Fin cfg0.N) (i : S10000x256.Idx) :
    (iblk m c 1 t : FVec Ideal S10000x256 .bf16) i = OnesColumn.widened (F := Ideal) (m ((c : Thread nD τ).loc main_arg0)) i := by
  obtain ⟨-, -, e0, e1, -⟩ := idx_facts t
  unfold iblk
  rw [View.read_apply]
  show V m c main_call0_v6 _ = _
  rw [WidenedOnEntry.V_widened]
  refine congrArg _ (funext fun a => Fin.ext ?_)
  match a with
  | ⟨0, _⟩ => show win0_1.index t 0 * 10000 + 1 * (i 0).val = (i 0).val; rw [e0]; omega
  | ⟨1, _⟩ => show win0_1.index t 1 * 256 + 1 * (i 1).val = (i 1).val; rw [e1]; omega

/-- The weight's block at every point is the whole weight. -/
theorem iblk2_apply (c : Dev nD) (t : Fin cfg0.N) (i : S128x128.Idx) :
    (iblk m c 2 t : FVec Ideal S128x128 .f32) i = (m ((c : Thread nD τ).loc main_arg2) : S128x128.Idx → EReal) i := by
  obtain ⟨-, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t 0 * 128 + 1 * (i 0).val = (i 0).val; rw [e0]; omega
  | ⟨1, _⟩ => show win0_2.index t 1 * 128 + 1 * (i 1).val = (i 1).val; rw [e1]; omega

/-- WHAT POINT `t` WRITES BACK is block `t` of the one function `fused`. -/
theorem flushed_eq (c : Dev nD) (t : Fin cfg0.N) :
    (dats m 0 c).flushed 3 t = ((cfg0.win 3).blk t).view.read (Elt Ideal) (fused m c) := by
  rw [Value.flushed3]
  unfold out0_3
  rw [View.canon_unit_zero hz]
  simp only [View.ld_unit_zero (S := S400x10000) hz, View.ld_unit_zero (S := S10000x256) hz, View.ld_unit_zero (S := S128x128) hz]
  obtain ⟨-, -, -, -, -, -, e0, e1⟩ := idx_facts t
  have hN : t.val < 25 := lt_of_lt_of_eq t.isLt N_0
  funext y
  show k0_pay1 (F := Ideal) (iblk m c 0 t) (iblk m c 1 t) (iblk m c 2 t) y = fused m c (((cfg0.win 3).blk t).view.emb y)
  have hy0 : (y 0).val < 400 := (y 0).isLt
  have hy1 : (y 1).val < 128 := (y 1).isLt
  have hy : (y : S400x128.Idx) = ix2 (⟨(y 0).val, hy0⟩ : Fin 400) (⟨(y 1).val, hy1⟩ : Fin 128) :=
    funext fun a => Fin.ext (by match a with | ⟨0, _⟩ => rfl | ⟨1, _⟩ => rfl)
  have hr : t.val * 400 + (y 0).val < 10000 := by omega
  have hemb : ((cfg0.win 3).blk t).view.emb y = ix2 (⟨t.val * 400 + (y 0).val, hr⟩ : Fin 10000) (⟨(y 1).val, hy1⟩ : Fin 128) :=
    funext fun a => Fin.ext (by
      match a with
      | ⟨0, _⟩ => show win0_3.index t 0 * 400 + 1 * (y 0).val = t.val * 400 + (y 0).val; rw [e0]; omega
      | ⟨1, _⟩ => show win0_3.index t 1 * 128 + 1 * (y 1).val = (y 1).val; rw [e1]; omega)
  rw [hemb]
  refine (congrArg (k0_pay1 (F := Ideal) (iblk m c 0 t) (iblk m c 1 t) (iblk m c 2 t)) hy).trans ?_
  exact Payload.pay_fused (iblk m c 0 t) (iblk m c 1 t) (iblk m c 2 t)
    (OnesColumn.widened (F := Ideal) (m ((c : Thread nD τ).loc main_arg0))) (m ((c : Thread nD τ).loc main_arg1))
    (m ((c : Thread nD τ).loc main_arg2)) ⟨(y 0).val, hy0⟩ ⟨(y 1).val, hy1⟩ ⟨t.val * 400 + (y 0).val, hr⟩
    (fun k => iblk0_apply m c t ⟨(y 0).val, hy0⟩ k ⟨t.val * 400 + (y 0).val, hr⟩ rfl)
    (fun i => iblk1_apply m c t i) (fun i => iblk2_apply m c t i)

/-- An index of the result array is in point `t`'s block iff each coordinate is in the block's range on its axis. -/
theorem mem_blk (t : Fin cfg0.N) (i : S10000x128.Idx) :
    i ∈ ((cfg0.win 3).blk t).view.set ↔ ∀ a : Fin 2, win0_3.index t a * S400x128.size a ≤ (i a).val ∧ (i a).val < win0_3.index t a * S400x128.size a + S400x128.size a := by
  show i ∈ ((View.whole main_v0).slice (win0_3.rect t)).set ↔ _
  rw [View.set_slice_whole, Rect.mem_set_unit]
  exact Iff.rfl

/-- The 25 row blocks tile the result: row `r` is in the block of point `r / 400`. -/
theorem cover (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 25 := N_0
  refine ⟨⟨(i 0).val / 400, by rw [hN]; omega⟩, flush0_3 _, ?_⟩
  rw [mem_blk]
  obtain ⟨-, -, -, -, -, -, e0, e1⟩ := idx_facts ⟨(i 0).val / 400, by rw [hN]; omega⟩
  intro a
  match a with
  | ⟨0, _⟩ =>
    show win0_3.index _ (0 : Fin 2) * 400 ≤ (i 0).val ∧ (i 0).val < win0_3.index _ (0 : Fin 2) * 400 + 400
    rw [e0]; show (i 0).val / 400 * 400 ≤ (i 0).val ∧ (i 0).val < (i 0).val / 400 * 400 + 400; omega
  | ⟨1, _⟩ =>
    show win0_3.index _ (1 : Fin 2) * 128 ≤ (i 1).val ∧ (i 1).val < win0_3.index _ (1 : Fin 2) * 128 + 128
    rw [e1]; omega

/-- THE ARRAY after the run is `fused` of the arguments. -/
theorem final (c : Dev nD) : (dats m 0 c).arrAt 3 cfg0.N = fused m c :=
  (dats m 0 c).arrAt_eq_of_cover 3 (fused m c) (fun t _ => flushed_eq m c t) cover

/-- The frame run re-posted: the result array at `fused` of the arguments, the arguments unchanged. -/
theorem run : θ_run defs (onTc (τ := τ) (main (F := Ideal))) ⟨m, fun _ => 0, ρ⟩ fun r => ∀ c : Dev nD,
      r.2.mem ((c : Thread nD τ).loc main_v0) = fused m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.ReferenceValue.lean ====
/-
  The reference's result is the layer's output function (`MeanAggregation.out`) of its three arguments.

  The reference multiplies `x · W`, then `A · (x · W)`, sums the rows of `A` (from an initial zero), and divides, the row
  sums broadcast along the columns. Read at an index `(r, j)` stage by stage, the composed index functions of the two
  products and of the sum are the coordinate pairs `(r, k)`, `(k, j)`, `(k, d)`, `(d, j)`, and the quotient is
  `outAt x A W r j` once the initial zero is added away.
-/
import proofs.«130859_g21887153340602_cont_8to1_460_5_alg».proof.Proof.Gen.ReferenceIdeal.Read
import proofs.«130859_g21887153340602_cont_8to1_460_5_alg».proof.Proof.MeanAggregation

noncomputable section

namespace Cert.ReferenceIdeal.RefValue

open Cert.ReferenceIdeal Cert.ReferenceIdeal.Read Idealize.ShloMosaic Idealize.ShloMosaic.ValueIdx

/-- The operand indices of `A · (x · W)` at `(r, j)` and contraction position `k`. -/
theorem lidx_v1 (r : Fin 10000) (j : Fin 128) (k : Fin 10000) : lidx_main_v1 (ix2 r j) k = ix2 r k :=
  funext fun a => Fin.ext (by match a with | ⟨0, _⟩ => rfl | ⟨1, _⟩ => rfl)
theorem ridx_v1 (r : Fin 10000) (j : Fin 128) (k : Fin 10000) : ridx_main_v1 (ix2 r j) k = ix2 k j :=
  funext fun a => Fin.ext (by match a with | ⟨0, _⟩ => rfl | ⟨1, _⟩ => rfl)
/-- The operand indices of `x · W` at `(k, j)` and contraction position `d`. -/
theorem lidx_v0 (k : Fin 10000) (j : Fin 128) (d : Fin 128) : lidx_main_v0 (ix2 k j) d = ix2 k d :=
  funext fun a => Fin.ext (by match a with | ⟨0, _⟩ => rfl | ⟨1, _⟩ => rfl)
theorem ridx_v0 (k : Fin 10000) (j : Fin 128) (d : Fin 128) : ridx_main_v0 (ix2 k j) d = ix2 d j :=
  funext fun a => Fin.ext (by match a with | ⟨0, _⟩ => rfl | ⟨1, _⟩ => rfl)
/-- The row sum read through the two broadcasts at `(r, j)` sums row `r`. -/
theorem idx_v2 (r : Fin 10000) (j : Fin 128) (k : Fin 10000) :
    idx_main_v2 (idx_main_v3 (idx_main_v4 (ix2 r j))) k = ix2 r k :=
  funext fun a => Fin.ext (by match a with | ⟨0, _⟩ => rfl | ⟨1, _⟩ => rfl)

/-- The reference's last stage is the layer's output function of the arguments. -/
theorem ref_eq_out (x0 : (⟨S10000x128, .f32⟩ : BufTy).Contents (Elt Ideal)) (x1 : (⟨S10000x10000, .f32⟩ : BufTy).Contents (Elt Ideal))
    (x2 : (⟨S128x128, .f32⟩ : BufTy).Contents (Elt Ideal)) :
    val_main_v5 (F := Ideal) x0 x1 x2 = MeanAggregation.out x0 x1 x2 := by
  funext i
  obtain ⟨r, j, rfl⟩ : ∃ (r : Fin 10000) (j : Fin 128), i = ix2 r j := ⟨i 0, i 1, eq_ix2 i⟩
  rw [MeanAggregation.out_apply, val_main_v5_apply, val_main_v1_apply, val_main_v4_apply, val_main_v3_apply, val_main_v2_apply,
    val_main_cst_apply]
  simp only [val_main_v0_apply, lidx_v1, ridx_v1, lidx_v0, ridx_v0, idx_v2]
  unfold MeanAggregation.outAt
  rw [Ideal.hostDivf_def]
  refine congrArg (Ideal.div _) ?_
  show Ideal.ofBits .f32 0x00000000#32 + _ = _
  rw [Ideal.ofBits_zero_f32, zero_add]

end Cert.ReferenceIdeal.RefValue

end
-- ==== Proof.FiniteInputs.lean ====
/-
  What the precondition gives: every entry of the three input arrays is a real number.

  The precondition is the conjunction of three `all(|v| < +∞)`, one per input, read on the extended reals. An all-reduction
  by `and` that comes out true was true at every element; and `max a (-a) < ⊤` excludes both infinities, so `a` is
  (the image of) a real number.
-/
import proofs.«130859_g21887153340602_cont_8to1_460_5_alg».proof.Pre_finite_inputs
import proofs.«130859_g21887153340602_cont_8to1_460_5_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Idealize.ShloMosaic Idealize.ShloMosaic.ValueIdx Cert.Pre_finite_inputs

/-- The f32 pattern the precondition compares against is `+∞`. -/
theorem inf_f32 : Ideal.ofBits .f32 0x7F800000#32 = ⊤ := by simp [Ideal.ofBits, Ideal.ieee]

/-- An extended real whose absolute value is below `+∞` is a real number. -/
theorem real_of_abs_lt_inf (a : EReal) (h : Ideal.cmp .olt (max a (-a)) (Ideal.ofBits .f32 0x7F800000#32) = 1#1) :
    ∃ v : ℝ, a = v := by
  rw [inf_f32] at h
  induction a using EReal.rec with
  | bot => simp [Ideal.cmp] at h
  | top => simp [Ideal.cmp] at h
  | coe r => exact ⟨r, rfl⟩

instance : Subsingleton S_.Idx := ⟨fun a b => funext fun d => d.elim0⟩

/-- Under the precondition every entry of `x`, of the adjacency and of the weight is a real number. -/
theorem real_of_pre (x0 : FVec Ideal S10000x128 .f32) (x1 : FVec Ideal S10000x10000 .f32) (x2 : FVec Ideal S128x128 .f32)
    (h : fn (F := Ideal) x0 x1 x2 = fun _ => 1#1) :
    (∀ i, ∃ v : ℝ, x0 i = v) ∧ (∀ i, ∃ v : ℝ, x1 i = v) ∧ (∀ i, ∃ v : ℝ, x2 i = v) := by
  have h0 := congrFun h ix0
  dsimp only [fn] at h0
  obtain ⟨h01, h2⟩ := IntOp.andi_eq_one.1 h0
  obtain ⟨h0', h1⟩ := IntOp.andi_eq_one.1 h01
  exact ⟨fun i => real_of_abs_lt_inf (x0 i) (Host.reduce_andi_all _ _ _ _ _ h0' i),
    fun i => real_of_abs_lt_inf (x1 i) (Host.reduce_andi_all _ _ _ _ _ h1 i),
    fun i => real_of_abs_lt_inf (x2 i) (Host.reduce_andi_all _ _ _ _ _ h2 i)⟩

end Cert.Pre_finite_inputs.Finite

end
-- ==== Proof.lean ====
/-
  The kernel and the reference compute one function of (x, A, W): the neighbourhood mean of the transformed features,
  `out r j = (∑ k, A r k · (∑ d, x k d · W d j)) / (∑ k, A r k)`.

  The reference forms `x · W`, then `A · (x · W)`, and divides by the row sums of `A`. The kernel widens `x` to
  `[x | 1 | 0 … 0]`, forms ONE product `A · [x | 1 | 0 … 0]` a block of 400 rows at a time, multiplies its first 128 columns by
  `W` and divides by its column 128. The denominators are the same sum (`a · 1 = a`); the numerators are two groupings
  of one double sum, equal because every entry is a real number (the precondition): on the extended reals distributivity
  needs that. The three frames are the generated ones; the idealization rewrote nothing.
-/
import proofs.«130859_g21887153340602_cont_8to1_460_5_alg».proof.Defs
import proofs.«130859_g21887153340602_cont_8to1_460_5_alg».proof.Proof.Gen.Kernel
import proofs.«130859_g21887153340602_cont_8to1_460_5_alg».proof.Proof.Gen.Kernel.Skeleton
import proofs.«130859_g21887153340602_cont_8to1_460_5_alg».proof.Proof.Gen.Kernel.Launch
import proofs.«130859_g21887153340602_cont_8to1_460_5_alg».proof.Proof.Gen.Kernel.Points
import proofs.«130859_g21887153340602_cont_8to1_460_5_alg».proof.Proof.Gen.Kernel.Frame
import proofs.«130859_g21887153340602_cont_8to1_460_5_alg».proof.Proof.Gen.KernelIdeal
import proofs.«130859_g21887153340602_cont_8to1_460_5_alg».proof.Proof.Gen.KernelIdeal.Skeleton
import proofs.«130859_g21887153340602_cont_8to1_460_5_alg».proof.Proof.Gen.KernelIdeal.Launch
import proofs.«130859_g21887153340602_cont_8to1_460_5_alg».proof.Proof.Gen.KernelIdeal.Points
import proofs.«130859_g21887153340602_cont_8to1_460_5_alg».proof.Proof.Gen.KernelIdeal.Frame
import proofs.«130859_g21887153340602_cont_8to1_460_5_alg».proof.Proof.Gen.ReferenceIdeal
import proofs.«130859_g21887153340602_cont_8to1_460_5_alg».proof.Proof.Gen.Pre_finite_inputs
import proofs.«130859_g21887153340602_cont_8to1_460_5_alg».proof.Proof.Gen.KernelIdeal.Value
import proofs.«130859_g21887153340602_cont_8to1_460_5_alg».proof.Proof.Gen.ReferenceIdeal.Run
import proofs.«130859_g21887153340602_cont_8to1_460_5_alg».proof.Proof.Gen.ReferenceIdeal.Read
import proofs.«130859_g21887153340602_cont_8to1_460_5_alg».proof.Proof.KernelValue
import proofs.«130859_g21887153340602_cont_8to1_460_5_alg».proof.Proof.ReferenceValue
import proofs.«130859_g21887153340602_cont_8to1_460_5_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Under the precondition the kernel's arrangement is the layer's output: the widened array holds `x` and the ones
    where the law reads them, and every entry is real. -/
theorem fused_eq_out (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.KernelValue.fused m c
      = MeanAggregation.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  obtain ⟨hx, hA, hW⟩ := Cert.Pre_finite_inputs.Finite.real_of_pre _ _ _ (hpre c)
  funext i
  exact MeanAggregation.fusedAt_eq_outAt _ _ _ _ hx hA hW
    (fun k d => Cert.KernelIdeal.OnesColumn.widened_left _ k (MeanAggregation.colX d) d rfl)
    (fun k => Cert.KernelIdeal.OnesColumn.widened_one _ k MeanAggregation.colOne rfl) (i 0) (i 1)

/-- Both idealized programs end with the layer's output function of the (agreeing) arguments in their result arrays. -/
theorem algebraic : Cert.algebraic_KernelIdeal_ReferenceIdeal := by
  intro m ρ m' ρ' hpre hagree
  refine ⟨fun c => MeanAggregation.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (fused_eq_out m hpre c), (h c).2⟩)
      (Cert.KernelIdeal.KernelValue.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v5_eq, Cert.ReferenceIdeal.RefValue.ref_eq_out, (hagree c).1, (hagree c).2.1,
      (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
